-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S64x64 : Shape := ⟨2, ![64, 64]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : IVec S64x64 1) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  main_v3
-- ==== Kernel.lean ====
abbrev S64x3x512x512 : Shape := ⟨4, ![64, 3, 512, 512]⟩
abbrev S64x64 : Shape := ⟨2, ![64, 64]⟩
abbrev S64x8x64 : Shape := ⟨3, ![64, 8, 64]⟩
abbrev S512x64 : Shape := ⟨2, ![512, 64]⟩
abbrev S512x64x8 : Shape := ⟨3, ![512, 64, 8]⟩
abbrev S512x512 : Shape := ⟨2, ![512, 512]⟩
abbrev S192x512x512 : Shape := ⟨3, ![192, 512, 512]⟩
abbrev S8x512x512 : Shape := ⟨3, ![8, 512, 512]⟩
abbrev S1x512x512 : Shape := ⟨3, ![1, 512, 512]⟩

abbrev nBuf : Space → Nat
  | .hbm => 10
  | .vmem => 5
  | .smem => 0
  | _ => 0

abbrev bufTy : (tb : Table) → Fin (tcTables nBuf tb) → BufTy
  | .hbm, ⟨0, _⟩ => ⟨S64x3x512x512, .f32⟩
  | .hbm, ⟨1, _⟩ => ⟨S64x64, .i1⟩
  | .hbm, ⟨2, _⟩ => ⟨S64x8x64, .i1⟩
  | .hbm, ⟨3, _⟩ => ⟨S512x64, .i1⟩
  | .hbm, ⟨4, _⟩ => ⟨S512x64x8, .i1⟩
  | .hbm, ⟨5, _⟩ => ⟨S512x512, .i1⟩
  | .hbm, ⟨6, _⟩ => ⟨S512x512, .f32⟩
  | .hbm, ⟨7, _⟩ => ⟨S192x512x512, .f32⟩
  | .hbm, ⟨8, _⟩ => ⟨S192x512x512, .f32⟩
  | .hbm, ⟨9, _⟩ => ⟨S64x3x512x512, .f32⟩
  | .local _ .vmem, ⟨0, _⟩ => ⟨S8x512x512, .f32⟩
  | .local _ .vmem, ⟨1, _⟩ => ⟨S8x512x512, .f32⟩
  | .local _ .vmem, ⟨2, _⟩ => ⟨S512x512, .f32⟩
  | .local _ .vmem, ⟨3, _⟩ => ⟨S8x512x512, .f32⟩
  | .local _ .vmem, ⟨4, _⟩ => ⟨S8x512x512, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64x64_S64x8x64_0_2 : S64x64.BroadcastsInDim S64x8x64 (![0, 2] : Fin 2 → Fin S64x8x64.rank)
  shapeCasts_S64x8x64_S512x64 : S64x8x64.ShapeCasts S512x64
  bcast_S512x64_S512x64x8_0_1 : S512x64.BroadcastsInDim S512x64x8 (![0, 1] : Fin 2 → Fin S512x64x8.rank)
  shapeCasts_S512x64x8_S512x512 : S512x64x8.ShapeCasts S512x512
  shapeCasts_S64x3x512x512_S192x512x512 : S64x3x512x512.ShapeCasts S192x512x512
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x512_S1x512x512 : S512x512.ShapeCasts S1x512x512
  shapeCasts_S1x512x512_S1x512x512 : S1x512x512.ShapeCasts S1x512x512
  broadcasts_S1x512x512_S8x512x512 : S1x512x512.Broadcasts S8x512x512
  shapeCasts_S192x512x512_S64x3x512x512 : S192x512x512.ShapeCasts S64x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S192x512x512.size a
  hwx0_0 : ∀ i : grid0.Coords, EltTy.bits .f32 = 32 ∨ (Rect.block (s := S192x512x512) S8x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x512.size a ≤ S192x512x512.size a
  hwx0_2 : ∀ i : grid0.Coords, EltTy.bits .f32 = 32 ∨ (Rect.block (s := S192x512x512) S8x512x512.size (cc0_transform_2 i) (hinb0_2 i)).WholeWords (EltTy.packing .f32)

variable [Facts₀]

abbrev win0_0 : Pipeline.Window sig grid0 :=
  Pipeline.Window.ofSpec (Memref.whole main_v5) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x3x512x512 : Shape := ⟨4, ![64, 3, 512, 512]⟩
abbrev S64x64 : Shape := ⟨2, ![64, 64]⟩
abbrev S64x8x64 : Shape := ⟨3, ![64, 8, 64]⟩
abbrev S512x64 : Shape := ⟨2, ![512, 64]⟩
abbrev S512x64x8 : Shape := ⟨3, ![512, 64, 8]⟩
abbrev S512x512 : Shape := ⟨2, ![512, 512]⟩
abbrev S1x1x512x512 : Shape := ⟨4, ![1, 1, 512, 512]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x64, .i1⟩
  | .hbm, ⟨2, _⟩ => ⟨S64x8x64, .i1⟩
  | .hbm, ⟨3, _⟩ => ⟨S512x64, .i1⟩
  | .hbm, ⟨4, _⟩ => ⟨S512x64x8, .i1⟩
  | .hbm, ⟨5, _⟩ => ⟨S512x512, .i1⟩
  | .hbm, ⟨6, _⟩ => ⟨S1x1x512x512, .i1⟩
  | .hbm, ⟨7, _⟩ => ⟨S_, .f32⟩
  | .hbm, ⟨8, _⟩ => ⟨S64x3x512x512, .i1⟩
  | .hbm, ⟨9, _⟩ => ⟨S64x3x512x512, .f32⟩
  | .hbm, ⟨10, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S64x64_S64x8x64_0_2 : S64x64.BroadcastsInDim S64x8x64 (![0, 2] : Fin 2 → Fin S64x8x64.rank)
  shapeCasts_S64x8x64_S512x64 : S64x8x64.ShapeCasts S512x64
  bcast_S512x64_S512x64x8_0_1 : S512x64.BroadcastsInDim S512x64x8 (![0, 1] : Fin 2 → Fin S512x64x8.rank)
  shapeCasts_S512x64x8_S512x512 : S512x64x8.ShapeCasts S512x512
  bcast_S512x512_S1x1x512x512_2_3 : S512x512.BroadcastsInDim S1x1x512x512 (![2, 3] : Fin 2 → Fin S1x1x512x512.rank)
  bcast_S1x1x512x512_S64x3x512x512_0_1_2_3 : S1x1x512x512.BroadcastsInDim S64x3x512x512 (![0, 1, 2, 3] : Fin 4 → Fin S64x3x512x512.rank)
  bcast_S_S64x3x512x512 : S_.BroadcastsInDim S64x3x512x512 (![] : Fin 0 → Fin S64x3x512x512.rank)

variable [Facts₀]

class Facts : Prop extends Facts₀ where

variable [Facts]
-- ==== Proof.Fill.lean ====
/-
  The masked fill as one function of an image stack and of a full-resolution switch array, and the one
  scalar law by which the two programs differ: a switch bit read as the number 0 or 1 exceeds one half
  exactly when the bit is set.
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.MaskFill

/-- The f32 pattern `0x3F000000` is the real one half. -/
theorem ofBits_half : Ideal.ofBits .f32 0x3F000000#32 = (((1 : ℝ) / 2 : ℝ) : EReal) := by
  simp [Ideal.ofBits, Ideal.ieee, -EReal.coe_mul]; norm_num

/-- A one-bit switch read as an unsigned number is 0 or 1, so it is greater than one half exactly when the
    bit is set: the comparison gives the bit back. -/
theorem gt_half (b : BitVec 1) :
    FloatOps.cmpf (F := Ideal) (φ := .f32) .ogt (FloatOps.uitofp (F := Ideal) .f32 b)
      (Scalar.ofBits (F := Ideal) .f32 0x3F000000#32) = b := by
  show Ideal.cmp .ogt (((b.toNat : ℝ)) : EReal) (Ideal.ofBits .f32 0x3F000000#32) = b
  rw [ofBits_half]
  rcases BitVec.eq_zero_or_eq_one b with h | h <;> subst h
  · have : ¬ ((((1 : ℝ) / 2 : ℝ) : EReal) < (((0#1 : BitVec 1).toNat : ℝ) : EReal)) := by
      rw [EReal.coe_lt_coe_iff]; norm_num
    simp only [Ideal.cmp, this, decide_false]; rfl
  · have : ((((1 : ℝ) / 2 : ℝ) : EReal) < (((1#1 : BitVec 1).toNat : ℝ) : EReal)) := by
      rw [EReal.coe_lt_coe_iff]; norm_num
    simp only [Ideal.cmp, this, decide_true]; rfl

/-- So selecting on "the switch as a number exceeds one half" is selecting on the switch. -/
theorem select_gt_half {α : Type} (b : BitVec 1) (a x : α) :
    Scalar.select (FloatOps.cmpf (F := Ideal) (φ := .f32) .ogt (FloatOps.uitofp (F := Ideal) .f32 b)
      (Scalar.ofBits (F := Ideal) .f32 0x3F000000#32)) a x = Scalar.select b a x := by
  rw [gt_half]

/-- The masked fill: where the switch of pixel `(h, w)` is set the result is the fill value `-1` (the f32 pattern
    `0xBF800000`, the same word in both programs, never evaluated), elsewhere the image's own value. The image stack
    is indexed `(n, h, w)`; the switch array is at full resolution, indexed `(h, w)`. -/
def fill {N : Nat} (img : (⟨3, ![N, 512, 512]⟩ : Shape).Idx → EReal) (sw : (⟨2, ![512, 512]⟩ : Shape).Idx → BitVec 1) :
    (⟨3, ![N, 512, 512]⟩ : Shape).Idx → EReal :=
  fun i => Scalar.select (sw (ix2 (i 1) (i 2))) (Ideal.ofBits .f32 0xBF800000#32) (img i)

/-- The same fill on the image as the programs take and return it, indexed `(b, c, h, w)`: the switch of a pixel does
    not depend on the batch or the channel. -/
def fill4 (img : (⟨4, ![64, 3, 512, 512]⟩ : Shape).Idx → EReal) (sw : (⟨2, ![512, 512]⟩ : Shape).Idx → BitVec 1) :
    (⟨4, ![64, 3, 512, 512]⟩ : Shape).Idx → EReal :=
  fun i => Scalar.select (sw (ix2 (i 2) (i 3))) (Ideal.ofBits .f32 0xBF800000#32) (img i)

/-- Flattening batch and channel into one axis of 192 images, filling, and unflattening is the fill of the
    four-axis image: image `(b, c)` is image `3 b + c` of the stack, and the fill acts within each image. -/
theorem fill_flat (img : (⟨4, ![64, 3, 512, 512]⟩ : Shape).Idx → EReal) (sw : (⟨2, ![512, 512]⟩ : Shape).Idx → BitVec 1)
    (h43 : (⟨4, ![64, 3, 512, 512]⟩ : Shape).ShapeCasts ⟨3, ![192, 512, 512]⟩)
    (h34 : (⟨3, ![192, 512, 512]⟩ : Shape).ShapeCasts ⟨4, ![64, 3, 512, 512]⟩) :
    shapeCast ⟨4, ![64, 3, 512, 512]⟩ (fill (shapeCast ⟨3, ![192, 512, 512]⟩ img h43) sw) h34 = fill4 img sw := by
  funext i
  obtain ⟨b, c, h, w, rfl⟩ : ∃ (b : Fin 64) (c : Fin 3) (h w : Fin 512), i = ix4 b c h w :=
    ⟨i 0, i 1, i 2, i 3, eq_ix4 i⟩
  have hk : 3 * b.val + c.val < 192 := by omega
  have e : ((⟨3, ![192, 512, 512]⟩ : Shape).rowMajor (ix3 (⟨3 * b.val + c.val, hk⟩ : Fin 192) h w)).val
      = ((⟨4, ![64, 3, 512, 512]⟩ : Shape).rowMajor (ix4 b c h w)).val := by
    rw [Shape.rowMajor_val_three, Shape.rowMajor_val_four]
    show ((3 * b.val + c.val) * 512 + h.val) * 512 + w.val = ((b.val * 3 + c.val) * 512 + h.val) * 512 + w.val
    omega
  rw [shapeCast_apply _ h34 (ix4 b c h w) (ix3 (⟨3 * b.val + c.val, hk⟩ : Fin 192) h w) e]
  unfold fill fill4
  rw [shapeCast_apply img h43 (ix3 (⟨3 * b.val + c.val, hk⟩ : Fin 192) h w) (ix4 b c h w) e.symm]

end Cert.MaskFill

end
-- ==== Proof.Entry.lean ====
/-
  What the kernel's region finds in its two operand arrays: the host lines before it have flattened the image's batch
  and channel axes into one axis of 192 images, and have expanded the coarse 64×64 switch array to full resolution
  (each switch repeated over an 8×8 block of pixels, as two broadcast-and-reshape pairs) and converted it to a float
  array of zeros and ones.
-/
import proofs.«119098_j23648089932317_1_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The full-resolution switch array: the coarse one repeated 8 times along the rows (a new middle axis of extent 8,
    folded into the rows) and then 8 times along the columns (a new last axis of extent 8, folded into the columns). -/
def expand (sw : IVec S64x64 1) : IVec S512x512 1 :=
  shapeCast S512x512 (broadcastInDim S512x64x8 ![0, 1] bcast_S512x64_S512x64x8_0_1
    (shapeCast S512x64 (broadcastInDim S64x8x64 ![0, 2] bcast_S64x64_S64x8x64_0_2 sw) shapeCasts_S64x8x64_S512x64))
    shapeCasts_S512x64x8_S512x512

/-- The region's second operand is the expanded switch array read as numbers. -/
theorem entry_mask (c : Dev nD) :
    (V m c main_v4 : FVec F S512x512 .f32) = uitofp .f32 (expand (m ((c : Thread nD τ).loc main_arg1))) := by
  show StableHlo.after hostOps0 (fun b => m (c, b)) (Proc.devRef .tc main_v4) = _
  after_results
  rfl

/-- The region's first operand is the image with batch and channel flattened. -/
theorem entry_img (c : Dev nD) :
    (V m c main_v5 : FVec F S192x512x512 .f32)
      = shapeCast S192x512x512 (m ((c : Thread nD τ).loc main_arg0)) shapeCasts_S64x3x512x512_S192x512x512 := by
  show StableHlo.after hostOps0 (fun b => m (c, b)) (Proc.devRef .tc main_v5) = _
  after_results
  rfl

end Cert.KernelIdeal.Entry

end
-- ==== Proof.Body.lean ====
/-
  The kernel body's stored value at one index. The body loads a block of 8 images and the whole float switch array,
  views the switch array as a stack of one, broadcasts it over the 8 images, compares it with one half and selects
  between the fill value and the loaded pixel; at `(a, h, w)` that reads the switch array at `(h, w)` and the block
  at `(a, h, w)`.
-/
import proofs.«119098_j23648089932317_1_alg».proof.Proof.Gen.KernelIdeal.Skeleton
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx

variable {F : FTy → Type} [FloatOps F]

/-- One image-shaped array broadcast over a stack of 8 reads, at `(a, h, w)`, the array at `(0, h, w)`. -/
theorem broadcastTo_stack_apply {α : Type} (v : S1x512x512.Idx → α) (hb : S1x512x512.Broadcasts S8x512x512)
    (a : Fin 8) (h w : Fin 512) :
    broadcastTo S8x512x512 v hb (ix3 a h w) = v (ix3 (0 : Fin 1) h w) := by
  refine broadcastTo_apply v hb (ix3 a h w) (ix3 (0 : Fin 1) h w) fun ax => ?_
  match ax with
  | ⟨0, _⟩ => rfl
  | ⟨1, _⟩ => show h.val = if (512 : Nat) = 1 then 0 else h.val; rw [if_neg (by decide)]
  | ⟨2, _⟩ => show w.val = if (512 : Nat) = 1 then 0 else w.val; rw [if_neg (by decide)]

/-- The stored value at `(a, h, w)`: the fill value where the switch array at `(h, w)` exceeds one half, else the
    loaded pixel. -/
theorem pay_apply (x0 : Vec F S8x512x512 .f32) (x1 : Vec F S512x512 .f32) (a : Fin 8) (h w : Fin 512) :
    k0_pay1 x0 x1 (ix3 a h w)
      = Scalar.select (FloatOps.cmpf .ogt (x1 (ix2 h w)) (Scalar.ofBits .f32 0x3F000000#32))
          (Scalar.ofBits .f32 0xBF800000#32) (x0 (ix3 a h w)) := by
  unfold k0_pay1
  simp only [shapeCast_self]
  show Scalar.select (FloatOps.cmpf .ogt
      (broadcastTo S8x512x512 (shapeCast S1x512x512 x1 shapeCasts_S512x512_S1x512x512)
        broadcasts_S1x512x512_S8x512x512 (ix3 a h w)) _) _ _ = _
  rw [broadcastTo_stack_apply, shapeCast_ab_1ab_apply]
  rfl

end Cert.KernelIdeal.Body

end
-- ==== Proof.Blocks.lean ====
/-
  From blocks to the array. The grid has 24 points; point `t` works on images `8 t … 8 t + 7` of the flattened
  stack and on the whole switch array, and writes back block `t` of the result. Each written block is the
  restriction of one function of the two operand arrays (`blend`), and the 24 blocks tile the result array, so after
  the region the result array is that function.
-/
import proofs.«119098_j23648089932317_1_alg».proof.Proof.Gen.KernelIdeal.Frame
import proofs.«119098_j23648089932317_1_alg».proof.Proof.Body
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The region's result as one function of its operand arrays: at image `n`, pixel `(h, w)`, the fill value where the
    float switch array at `(h, w)` exceeds one half, else the image stack's own value. -/
def blend (X : S192x512x512.Idx → Elt F .f32) (M : S512x512.Idx → Elt F .f32) : S192x512x512.Idx → Elt F .f32 :=
  fun i => Scalar.select (FloatOps.cmpf .ogt (M (ix2 (i 1) (i 2))) (Scalar.ofBits .f32 0x3F000000#32))
    (Scalar.ofBits .f32 0xBF800000#32) (X i)

/-- `blend` at an index whose pixel coordinates are `(h, w)`. -/
theorem blend_apply (X : S192x512x512.Idx → Elt F .f32) (M : S512x512.Idx → Elt F .f32) (i : S192x512x512.Idx)
    (h w : Fin 512) (h1 : (i 1).val = h.val) (h2 : (i 2).val = w.val) :
    blend X M i = Scalar.select (FloatOps.cmpf .ogt (M (ix2 h w)) (Scalar.ofBits .f32 0x3F000000#32))
      (Scalar.ofBits .f32 0xBF800000#32) (X i) := by
  unfold blend
  have e : (ix2 (i 1) (i 2) : S512x512.Idx) = ix2 h w := by
    funext ax
    match ax with
    | ⟨0, _⟩ => exact Fin.ext h1
    | ⟨1, _⟩ => exact Fin.ext h2
  rw [e]

/-- The printed index maps over the grid: the image windows (operand and result) are at block `t` along the stack
    axis and at block 0 along the pixel axes; the switch window is the whole array at every point. -/
theorem idx_facts : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What point `t` writes back is block `t` of `blend` of the operand arrays as the region finds them. -/
theorem flushed_eq (c : Dev nD) (t : Fin cfg0.N) :
    (dats m 0 c).flushed 2 t
      = ((cfg0.win 2).blk t).view.read (Elt F) (blend (V m c main_v5) (V m c main_v4)) := by
  show (cfg0.win 2).cut (grid0.coords t) ((dats m 0 c).after 2 t) = _
  rw [after0_2]
  unfold out0_2
  rw [View.canon_unit_zero hz3]
  simp only [View.ld_unit_zero (S := S8x512x512) hz3, View.ld_unit_zero (S := S512x512) hz2]
  obtain ⟨e0, e1, e2, e3, e4, e5, e6, e7⟩ := idx_facts t
  refine funext fun (j : S8x512x512.Idx) => ?_
  obtain ⟨a, h, w, rfl⟩ : ∃ (a : Fin 8) (h w : Fin 512), j = ix3 a h w := ⟨j 0, j 1, j 2, eq_ix3 j⟩
  show k0_pay1 (iblk m c 0 t) (iblk m c 1 t) (ix3 a h w)
    = blend (V m c main_v5) (V m c main_v4) (((cfg0.win 2).blk t).view.emb (ix3 a h w))
  have r0 : (iblk m c 0 t : Vec F S8x512x512 .f32) (ix3 a h w)
      = V m c main_v5 (((cfg0.win 2).blk t).view.emb (ix3 a h w)) := by
    show V m c main_v5 (((cfg0.win 0).blk t).view.emb (ix3 a h w))
      = V m c main_v5 (((cfg0.win 2).blk t).view.emb (ix3 a h w))
    refine congrArg (V m c main_v5) ?_
    funext ax; apply Fin.ext
    match ax with
    | ⟨0, _⟩ => show win0_0.index t (0 : Fin 3) * 8 + 1 * a.val = win0_2.index t (0 : Fin 3) * 8 + 1 * a.val; omega
    | ⟨1, _⟩ => show win0_0.index t (1 : Fin 3) * 512 + 1 * h.val = win0_2.index t (1 : Fin 3) * 512 + 1 * h.val; omega
    | ⟨2, _⟩ => show win0_0.index t (2 : Fin 3) * 512 + 1 * w.val = win0_2.index t (2 : Fin 3) * 512 + 1 * w.val; omega
  have r1 : (iblk m c 1 t : Vec F S512x512 .f32) (ix2 h w) = V m c main_v4 (ix2 h w) := by
    show V m c main_v4 (((cfg0.win 1).blk t).view.emb (ix2 h w)) = V m c main_v4 (ix2 h w)
    refine congrArg (V m c main_v4) ?_
    funext ax; apply Fin.ext
    match ax with
    | ⟨0, _⟩ => show win0_1.index t (0 : Fin 2) * 512 + 1 * h.val = h.val; omega
    | ⟨1, _⟩ => show win0_1.index t (1 : Fin 2) * 512 + 1 * w.val = w.val; omega
  rw [Body.pay_apply (iblk m c 0 t) (iblk m c 1 t) a h w, r0, r1]
  refine (blend_apply _ _ _ h w ?_ ?_).symm
  · show win0_2.index t (1 : Fin 3) * 512 + 1 * h.val = h.val; omega
  · show win0_2.index t (2 : Fin 3) * 512 + 1 * w.val = w.val; omega

/-- An index of the result array is in point `t`'s block iff each coordinate is in the block's range on its axis. -/
theorem mem_blk (t : Fin cfg0.N) (i : S192x512x512.Idx) :
    i ∈ ((cfg0.win 2).blk t).view.set ↔ ∀ a : Fin 3, win0_2.index t a * S8x512x512.size a ≤ (i a).val
      ∧ (i a).val < win0_2.index t a * S8x512x512.size a + S8x512x512.size a := by
  show i ∈ ((View.whole main_v6).slice (win0_2.rect t)).set ↔ _
  rw [View.set_slice_whole, Rect.mem_set_unit]
  exact Iff.rfl

/-- The blocks tile the result array: image `n` of the stack is in the block of point `n / 8`. -/
theorem cover (i : S192x512x512.Idx) :
    ∃ t : Fin cfg0.N, (cfg0.win 2).flush t = true ∧ i ∈ ((cfg0.win 2).blk t).view.set := by
  have hN : cfg0.N = 24 := N_0
  have h0 : (i 0).val < 192 := (i 0).isLt
  have h1 : (i 1).val < 512 := (i 1).isLt
  have h2 : (i 2).val < 512 := (i 2).isLt
  have ht : (i 0).val / 8 < cfg0.N := by omega
  obtain ⟨-, -, -, -, -, e5, e6, e7⟩ := idx_facts ⟨(i 0).val / 8, ht⟩
  have e5' : win0_2.index ⟨(i 0).val / 8, ht⟩ (0 : Fin 3) = (i 0).val / 8 := e5
  refine ⟨⟨(i 0).val / 8, ht⟩, flush0_2 _, ?_⟩
  rw [mem_blk]
  intro a
  match a with
  | ⟨0, _⟩ =>
    show win0_2.index ⟨(i 0).val / 8, ht⟩ (0 : Fin 3) * 8 ≤ (i 0).val
      ∧ (i 0).val < win0_2.index ⟨(i 0).val / 8, ht⟩ (0 : Fin 3) * 8 + 8
    omega
  | ⟨1, _⟩ =>
    show win0_2.index ⟨(i 0).val / 8, ht⟩ (1 : Fin 3) * 512 ≤ (i 1).val
      ∧ (i 1).val < win0_2.index ⟨(i 0).val / 8, ht⟩ (1 : Fin 3) * 512 + 512
    omega
  | ⟨2, _⟩ =>
    show win0_2.index ⟨(i 0).val / 8, ht⟩ (2 : Fin 3) * 512 ≤ (i 2).val
      ∧ (i 2).val < win0_2.index ⟨(i 0).val / 8, ht⟩ (2 : Fin 3) * 512 + 512
    omega

/-- After the region the result array is `blend` of the operand arrays as the region found them. -/
theorem final (c : Dev nD) :
    (dats m 0 c).arrAt 2 cfg0.N = blend (V m c main_v5) (V m c main_v4) :=
  (dats m 0 c).arrAt_eq_of_cover 2 (blend (V m c main_v5) (V m c main_v4)) (fun t _ => flushed_eq m c t) cover

end Cert.KernelIdeal.Blocks

end
-- ==== Proof.Result.lean ====
/-
  The kernel's run read as a value, on the extended reals. After the region the one host line left unflattens the
  result array. The region's array is `blend` of the flattened image and of the float switch array; a switch read
  as a number exceeds one half exactly when it is set, so that is the fill by the expanded switch array; and
  unflattening the fill of the flattened image is the fill of the image.
-/
import proofs.«119098_j23648089932317_1_alg».proof.Proof.Gen.KernelIdeal.Frame
import proofs.«119098_j23648089932317_1_alg».proof.Proof.Fill
import proofs.«119098_j23648089932317_1_alg».proof.Proof.Entry
import proofs.«119098_j23648089932317_1_alg».proof.Proof.Blocks
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo
open Idealize.ShloMosaic.Pipeline (Dat)

/-- On the extended reals the region's function of a float switch array of zeros and ones is the fill by the
    switches themselves. -/
theorem blend_eq (X : S192x512x512.Idx → EReal) (sw : IVec S512x512 1) :
    Blocks.blend (F := Ideal) X (uitofp (F := Ideal) .f32 sw) = Cert.MaskFill.fill X sw := by
  funext i
  unfold Blocks.blend Cert.MaskFill.fill
  exact Cert.MaskFill.select_gt_half _ _ _

variable {F : FTy → Type} [FloatOps F]

/-- The host line after the region leaves, in the program's result, the region's result array unflattened. -/
theorem tail_v7 (m : (ℓ : Loc nD τ sig) → Buf (Elt F) ℓ) (c : Dev nD) :
    Pipeline.afterTail₀ cfgs (dats m) 0 (V0 m) [hostOps1] c main_v7
      = shapeCast S64x3x512x512 ((dats m 0 c).arrAt 2 cfg0.N) shapeCasts_S192x512x512_S64x3x512x512 := by
  unfold Pipeline.afterTail₀
  show StableHlo.after hostOps1 _ (Proc.devRef .tc main_v7) = _
  after_results
  have e : Pipeline.withArrays (cfgs 0).spec c (V0 m c) (fun w => (dats m 0 c).arrAt w (cfgs 0).N)
      (Proc.devRef .tc main_v6) = (dats m 0 c).arrAt 2 cfg0.N :=
    Pipeline.withArrays_arr spec0 launch0.win.arr_inj c _ _ 2
  rw [e]
  rfl

variable (m : (ℓ : Loc nD τ sig) → Buf (Elt Ideal) ℓ) (ρ : Dev nD → PrngReg)

/-- The program's result on the extended reals: the fill of the image by the expanded switch array. -/
theorem result (c : Dev nD) :
    Pipeline.afterTail₀ cfgs (dats m) 0 (V0 m) [hostOps1] c main_v7
      = Cert.MaskFill.fill4 (m ((c : Thread nD τ).loc main_arg0)) (Entry.expand (m ((c : Thread nD τ).loc main_arg1))) := by
  rw [tail_v7, Blocks.final, Entry.entry_img, Entry.entry_mask, blend_eq]
  exact Cert.MaskFill.fill_flat _ _ _ _

/-- Every weakly fair execution of the kernel's program on the extended reals terminates with the result at the fill
    and the arguments unchanged. -/
theorem run : θ_run defs (onTc (τ := τ) (main (F := Ideal))) ⟨m, fun _ => 0, ρ⟩ fun r => ∀ c : Dev nD,
      r.2.mem ((c : Thread nD τ).loc main_v7)
        = Cert.MaskFill.fill4 (m ((c : Thread nD τ).loc main_arg0)) (Entry.expand (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v7 (Pipeline.mem_restRefs_of main_v7 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.Ref.lean ====
/-
  The reference's result as the fill. The reference expands the coarse switch array to full resolution with the same
  four host lines as the kernel's program, gives it two leading unit axes, broadcasts it over batch and channel, and
  selects between the fill value and the image: at `(b, c, h, w)` it selects on the expanded switch at `(h, w)`.
-/
import proofs.«119098_j23648089932317_1_alg».proof.Proof.Gen.ReferenceIdeal.Read
import proofs.«119098_j23648089932317_1_alg».proof.Proof.Fill

noncomputable section

namespace Cert.ReferenceIdeal.RefValue

open Cert.ReferenceIdeal Cert.ReferenceIdeal.Gen Cert.ReferenceIdeal.Read Idealize.ShloMosaic
open Idealize.ShloMosaic.ValueIdx

/-- The reference's result is the fill of the image by the expanded switch array (the reference's fourth stage). -/
theorem result_eq (x0 : FVec Ideal S64x3x512x512 .f32) (x1 : IVec S64x64 1) :
    val_main_v5 (F := Ideal) x0 x1 = Cert.MaskFill.fill4 x0 (val_main_v3 (F := Ideal) x1) := by
  funext i
  rw [val_main_v5_apply, val_main_call0_v0_apply, val_main_v4_apply, val_main_call0_v1_apply, val_main_cst_apply]
  unfold Cert.MaskFill.fill4
  have e : idx_main_v4 (idx_main_call0_v0 i) = (ix2 (i 2) (i 3) : S512x512.Idx) := by
    funext ax
    match ax with
    | ⟨0, _⟩ => rfl
    | ⟨1, _⟩ => rfl
  rw [e]
  rfl

end Cert.ReferenceIdeal.RefValue

end
-- ==== Proof.lean ====
/-
  The kernel's program and the reference compute the same masked fill on the extended reals.

  Both programs first expand the coarse 64×64 switch array to full resolution, 512×512, by the same four host lines
  (each switch repeated over an 8×8 block of pixels). The reference then selects, pixel by pixel and whatever the
  batch and channel, the fill value `-1` where the switch is set and the image's value elsewhere. The kernel's program
  converts the expanded switches to the numbers 0 and 1, flattens batch and channel into one axis of 192 images,
  and runs a kernel over 24 blocks of 8 images that selects the fill value where the number exceeds one half; one
  host line then unflattens the result. A switch read as a number exceeds one half exactly when it is set, the 24
  written blocks tile the flattened result, and flattening commutes with a fill that acts within each image: so both
  results are the fill of the image by the expanded switch array. No algebraic law of the extended reals beyond the
  comparison of 0 and 1 with one half is used, so the finiteness of the image is never needed.

  The three frames are the generated ones (the reference's is its generated run with the result dropped); the
  idealization rewrote nothing, so there is nothing to preserve.
-/
import proofs.«119098_j23648089932317_1_alg».proof.Defs
import proofs.«119098_j23648089932317_1_alg».proof.Proof.Gen.Kernel
import proofs.«119098_j23648089932317_1_alg».proof.Proof.Gen.Kernel.Skeleton
import proofs.«119098_j23648089932317_1_alg».proof.Proof.Gen.Kernel.Launch
import proofs.«119098_j23648089932317_1_alg».proof.Proof.Gen.Kernel.Points
import proofs.«119098_j23648089932317_1_alg».proof.Proof.Gen.Kernel.Frame
import proofs.«119098_j23648089932317_1_alg».proof.Proof.Gen.KernelIdeal
import proofs.«119098_j23648089932317_1_alg».proof.Proof.Gen.KernelIdeal.Skeleton
import proofs.«119098_j23648089932317_1_alg».proof.Proof.Gen.KernelIdeal.Launch
import proofs.«119098_j23648089932317_1_alg».proof.Proof.Gen.KernelIdeal.Points
import proofs.«119098_j23648089932317_1_alg».proof.Proof.Gen.KernelIdeal.Frame
import proofs.«119098_j23648089932317_1_alg».proof.Proof.Gen.ReferenceIdeal
import proofs.«119098_j23648089932317_1_alg».proof.Proof.Gen.ReferenceIdeal.Run
import proofs.«119098_j23648089932317_1_alg».proof.Proof.Gen.ReferenceIdeal.Read
import proofs.«119098_j23648089932317_1_alg».proof.Proof.Gen.Pre_finite_inputs
import proofs.«119098_j23648089932317_1_alg».proof.Proof.Result
import proofs.«119098_j23648089932317_1_alg».proof.Proof.Ref
import Idealize.ShloMosaic.Adequacy
import Idealize.ShloMosaic.Init

noncomputable section

namespace Cert.Proof

open Idealize.ShloMosaic Idealize.SL.Sem

/-- The two programs expand the coarse switch array by the same four host lines: the reference's fourth stage is the
    kernel program's expanded switch array. -/
theorem expand_eq (x1 : IVec Cert.KernelIdeal.S64x64 1) :
    Cert.ReferenceIdeal.Read.val_main_v3 (F := Ideal) x1 = Cert.KernelIdeal.Entry.expand x1 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the image and the switches, both programs end with the fill of the image by the
    expanded switch array. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v5_eq,
    Cert.ReferenceIdeal.RefValue.result_eq, expand_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
